-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S512x256 : Shape := ⟨2, ![512, 256]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  main_v18

def fn {F : FTy → Type} [FloatOps F] (main_arg0 : FVec F S8x2048x512 .f32) (main_arg1 : FVec F S512x256 .f32) (main_arg2 : FVec F S512x256 .f32) (main_arg3 : FVec F S512x256 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_v13 main_v16
-- ==== Kernel.lean ====
abbrev S8x2048x512 : Shape := ⟨3, ![8, 2048, 512]⟩
abbrev S512x256 : Shape := ⟨2, ![512, 256]⟩
abbrev S8x2048x256 : Shape := ⟨3, ![8, 2048, 256]⟩
abbrev S1x2048x512 : Shape := ⟨3, ![1, 2048, 512]⟩
abbrev S1x512x256 : Shape := ⟨3, ![1, 512, 256]⟩
abbrev S2048x256 : Shape := ⟨2, ![2048, 256]⟩
abbrev S2048x512 : Shape := ⟨2, ![2048, 512]⟩
abbrev S1x512x512 : Shape := ⟨3, ![1, 512, 512]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S8x2048x512, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S8x2048x256, .f32⟩
  | .local _ .vmem, ⟨0, _⟩ => ⟨S1x2048x512, .f32⟩
  | .local _ .vmem, ⟨1, _⟩ => ⟨S1x2048x512, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S1x512x256, .f32⟩
  | .local _ .vmem, ⟨6, _⟩ => ⟨S1x512x256, .f32⟩
  | .local _ .vmem, ⟨7, _⟩ => ⟨S2048x256, .bf16⟩
  | .local _ .vmem, ⟨8, _⟩ => ⟨S2048x256, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  packedbf16_S2048x256_S2048x256_0_0 : (Rect.unit (s := S2048x256) ![0, 0] S2048x256.size inb_S2048x256_S2048x256_0_0).PackedRows (EltTy.packing .bf16)
  h_S1x512x512 : 0 < S1x512x512.numel
  shapeCasts_S1x512x512_S512x512 : S1x512x512.ShapeCasts S512x512
  reduces_S512x2048_S512 : S512x2048.Reduces [1] S512
  shapeCasts_S512_S512x1 : S512.ShapeCasts S512x1
  broadcasts_S512x1_S512x2048 : S512x1.Broadcasts S512x2048
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  dot_S2048x512_S512x256_S2048x256_1_0_0_1_n_n_wf : DotDims.WF S2048x512 S512x256 S2048x256 [1] [0] [0] [1] [] []
  dot_S512x512_S512x256_S512x256_1_0_0_1_n_n_wf : DotDims.WF S512x512 S512x256 S512x256 [1] [0] [0] [1] [] []
  dot_S512x256_S2048x256_S512x2048_1_1_0_0_n_n_wf : DotDims.WF S512x256 S2048x256 S512x2048 [1] [1] [0] [0] [] []
  dot_S512x2048_S2048x256_S512x256_1_0_0_1_n_n_wf : DotDims.WF S512x2048 S2048x256 S512x256 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x512.size a ≤ S1x2048x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x2048x512.size a
  hwx0_0 : ∀ i : grid0.Coords, EltTy.bits .f32 = 32 ∨ (Rect.block (s := S8x2048x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x256.size a ≤ S8x2048x256.size a
  hwx0_4 : ∀ i : grid0.Coords, EltTy.bits .f32 = 32 ∨ (Rect.block (s := S8x2048x256) S1x512x256.size (cc0_transform_4 i) (hinb0_4 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S512x256 : Shape := ⟨2, ![512, 256]⟩
abbrev S8x2048x256 : Shape := ⟨3, ![8, 2048, 256]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S8x2048x256, .f32⟩
  | .hbm, ⟨5, _⟩ => ⟨S8x2048x256, .f32⟩
  | .hbm, ⟨6, _⟩ => ⟨S8x2048x256, .f32⟩
  | .hbm, ⟨7, _⟩ => ⟨S8x2048x2048, .f32⟩
  | .hbm, ⟨8, _⟩ => ⟨S_, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S_, .f32⟩
  | .hbm, ⟨15, _⟩ => ⟨S8x2048, .f32⟩
  | .hbm, ⟨16, _⟩ => ⟨S8x2048, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S8x2048x2048, .f32⟩
  | .hbm, ⟨25, _⟩ => ⟨S8x2048x2048, .f32⟩
  | .hbm, ⟨26, _⟩ => ⟨S8x2048x256, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x512_S512x256_S8x2048x256_2_0_01_1_n_n_wf : DotDims.WF S8x2048x512 S512x256 S8x2048x256 [2] [0] [0, 1] [1] [] []
  dot_S8x2048x256_S8x2048x256_S8x2048x2048_2_2_1_1_0_0_wf : DotDims.WF S8x2048x256 S8x2048x256 S8x2048x2048 [2] [2] [1] [1] [0] [0]
  dot_S8x2048x2048_S8x2048x256_S8x2048x256_2_1_1_2_0_0_wf : DotDims.WF S8x2048x2048 S8x2048x256 S8x2048x256 [2] [1] [1] [2] [0] [0]

variable [Facts₀]

def dot_S8x2048x512_S512x256_S8x2048x256_2_0_01_1_n_n : DotDims S8x2048x512 S512x256 S8x2048x256 where
  lhsContracting := [2]
  rhsContracting := [0]
  lhsNonContracting := [0, 1]
  rhsNonContracting := [1]
  lhsBatch := []
  rhsBatch := []
  wf := dot_S8x2048x512_S512x256_S8x2048x256_2_0_01_1_n_n_wf
def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.AttnLaw.lean ====
/-
  Scaled dot-product attention on the extended reals, one entry at a time.

  The entry of the result at batch `b`, query row `q`, channel `d` is a softmax-weighted sum of the value rows:
  with the projections `proj x w b t d = ∑ f, x b t f · w f d`, a score row `s k` over the 2048 keys, its maximum
  `rowMax s` (a fold of `max` from the word of −∞) and the weights `exp (s k − rowMax s) / ∑ k', exp (s k' − rowMax s)`,
  the entry is `∑ k, weight k · v k`.

  Two ways of writing the score: the query scaled by the word of 1/16 before the sum over the 256 channels
  (`scoreQ`), or the sum divided by the square root of the word of 256 (`scoreS`). They are one extended real for
  EVERY pair of rows, infinite entries included: dividing by the real 16 is multiplying by the real 1/16
  (`Ideal.div_coe`), products on the extended reals commute and associate, and a non-negative real factor
  distributes over a finite sum (`sum_mul_real`).
-/
import Idealize.ShloMosaic.PureOps.Ideal
import Idealize.ShloMosaic.PureOps.Ideal.Laws

noncomputable section

namespace Attn

open Idealize.ShloMosaic

/-- A non-negative real factor on the right distributes over a finite sum of extended reals. -/
theorem sum_mul_real {ι : Type*} (s : Finset ι) (a : ι → EReal) (c : ℝ) (hc : 0 ≤ c) :
    ∑ i ∈ s, a i * (c : EReal) = (∑ i ∈ s, a i) * (c : EReal) := by
  classical
  induction s using Finset.induction_on with
  | empty => simp
  | insert i s hi ih =>
    rw [Finset.sum_insert hi, Finset.sum_insert hi, ih,
      EReal.right_distrib_of_nonneg_of_ne_top (EReal.coe_nonneg.mpr hc) (EReal.coe_ne_top c)]

/-- The f32 word `0x3D800000` is the real 1/16. -/
theorem word_sixteenth : (Ideal.ofBits .f32 0x3D800000#32 : EReal) = ((1 / 16 : ℝ) : EReal) := by
  simp [Ideal.ofBits, Ideal.ieee, -EReal.coe_mul]; norm_num

/-- The f32 word `0x43800000` is the real 256. -/
theorem word_256 : (Ideal.ofBits .f32 0x43800000#32 : EReal) = ((256 : ℝ) : EReal) := by
  simp [Ideal.ofBits, Ideal.ieee, -EReal.coe_mul]; norm_num

/-- The square root of the word of 256 is the real 16. -/
theorem sqrt_word_256 : Ideal.sqrt (Ideal.ofBits .f32 0x43800000#32) = ((16 : ℝ) : EReal) := by
  rw [word_256, Ideal.sqrt_coe, if_neg (by norm_num)]
  congr 1
  rw [show (256 : ℝ) = 16 ^ 2 by norm_num, Real.sqrt_sq (by norm_num)]

/-- One projected entry: row `t` of batch `b` of `x` against column `d` of `w`. -/
def proj (x : Fin 8 → Fin 2048 → Fin 512 → EReal) (w : Fin 512 → Fin 256 → EReal) (b : Fin 8) (t : Fin 2048)
    (d : Fin 256) : EReal :=
  ∑ f : Fin 512, x b t f * w f d

/-- A score with the query row scaled by the word of 1/16 before the sum over the channels. -/
def scoreQ (q k : Fin 256 → EReal) : EReal :=
  ∑ d : Fin 256, (q d * (Ideal.ofBits .f32 0x3D800000#32 : EReal)) * k d

/-- A score as the sum over the channels divided by the square root of the word of 256. -/
def scoreS (q k : Fin 256 → EReal) : EReal :=
  Ideal.div (∑ d : Fin 256, q d * k d) (Ideal.sqrt (Ideal.ofBits .f32 0x43800000#32))

/-- The two scores are one extended real, whatever the rows hold. -/
theorem scoreQ_eq_scoreS (q k : Fin 256 → EReal) : scoreQ q k = scoreS q k := by
  unfold scoreQ scoreS
  rw [sqrt_word_256, Ideal.div_coe (by norm_num : (16 : ℝ) ≠ 0), word_sixteenth,
    ← sum_mul_real _ _ _ (by norm_num)]
  exact Finset.sum_congr rfl fun d _ => mul_right_comm _ _ _

/-- The maximum of a score row: the fold of `max` over the keys from the word of −∞. -/
def rowMax (s : Fin 2048 → EReal) : EReal :=
  (Finset.univ : Finset (Fin 2048)).fold max (Ideal.ofBits .f32 0xFF800000#32 : EReal) s

/-- The softmax-weighted sum of `v` by the score row `s`. -/
def soft (s v : Fin 2048 → EReal) : EReal :=
  ∑ k : Fin 2048, Ideal.div (Ideal.exp (s k - rowMax s)) (∑ k' : Fin 2048, Ideal.exp (s k' - rowMax s)) * v k

/-- The attention entry with the scale folded into the query. -/
def outQ (x : Fin 8 → Fin 2048 → Fin 512 → EReal) (wq wk wv : Fin 512 → Fin 256 → EReal) (b : Fin 8) (q : Fin 2048)
    (d : Fin 256) : EReal :=
  soft (fun k => scoreQ (proj x wq b q) (proj x wk b k)) (fun k => proj x wv b k d)

/-- The attention entry with the scores divided by the square root of the channel count. -/
def outS (x : Fin 8 → Fin 2048 → Fin 512 → EReal) (wq wk wv : Fin 512 → Fin 256 → EReal) (b : Fin 8) (q : Fin 2048)
    (d : Fin 256) : EReal :=
  soft (fun k => scoreS (proj x wq b q) (proj x wk b k)) (fun k => proj x wv b k d)

/-- The two entries are equal: their score rows are. -/
theorem outQ_eq_outS (x : Fin 8 → Fin 2048 → Fin 512 → EReal) (wq wk wv : Fin 512 → Fin 256 → EReal) (b : Fin 8)
    (q : Fin 2048) (d : Fin 256) : outQ x wq wk wv b q d = outS x wq wk wv b q d := by
  unfold outQ outS
  simp only [scoreQ_eq_scoreS]

/-- `max` of the fold's own starting value and the fold is the fold. -/
theorem max_init_fold {ι : Type*} (s : Finset ι) (a : EReal) (f : ι → EReal) :
    max a (s.fold max a f) = s.fold max a f :=
  max_eq_right ((Finset.le_fold_max a).mpr (Or.inl le_rfl))

end Attn

end
-- ==== Proof.KernelPieces.lean ====
/-
  What one run of the kernel body leaves behind, as values of the body's three payloads.

  At the first query tile of a batch item (case A) the body stores the key block and the value block into the two
  carried buffers — the payloads `k0_pay2`, `k0_pay3` of the whole staged input block and a weight block — and then
  reads them back for the output tile; at the other tiles (case B) it reads what the earlier point left there. In both
  cases the output tile is the payload `k0_pay4` of the query tile's 512 rows of the input block (`qrows`), the query
  weights, and the two carried buffers' contents. Each store covers its whole buffer, so what a buffer holds afterwards
  is the stored payload itself; each whole-buffer load reads the buffer's contents. Stated at any float instance.
-/
import proofs.«109641_j87574383165870_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The query tile's rows of the staged input block: the 512 rows from row `512 · (i 1)` on. -/
abbrev qrows (i : grid0.Coords) (x0 : Vec F S1x2048x512 .f32) : Vec F S1x512x512 .f32 :=
  View.ld x0 (Rect.unit (s := S1x2048x512) (k0_off1 i) S1x512x512.size (k0_off1_inb i))

/-- Case B's output tile: the payload of the query rows, the query weights and the carried buffers as found. -/
theorem out_B_4 (c : Dev nD) (i : grid0.Coords) (arg2 : Memref sig .tc .vmem S1x2048x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x512x256 .f32) (harg6 : arg6.IsWhole) (arg7 : Memref sig .tc .vmem S2048x256 .bf16) (harg7 : arg7.IsWhole) (arg8 : Memref sig .tc .vmem S2048x256 .bf16) (harg8 : arg8.IsWhole) (hc0 : ¬cond0_0 i)
    (x0 : Vec F S1x2048x512 .f32) (x1 : Vec F S512x256 .f32) (x2 : Vec F S512x256 .f32) (x3 : Vec F S512x256 .f32) (xs0 : Vec F S2048x256 .bf16) (xs1 : Vec F S2048x256 .bf16) :
    out0_B_4 c i arg2 harg2 arg3 harg3 arg4 harg4 arg5 harg5 arg6 harg6 arg7 harg7 arg8 harg8 hc0 x0 x1 x2 x3 xs0 xs1 = k0_pay4 (qrows i x0) x1 xs0 xs1 := by
  unfold out0_B_4
  rw [View.read_writes_eq_canon _ _ _ (cover0_B_4 c i arg2 harg2 arg3 harg3 arg4 harg4 arg5 harg5 arg6 harg6 arg7 harg7 arg8 harg8 hc0 x0 x1 x2 x3 xs0 xs1)]
  unfold kernelRun0_B
  dsimp only
  rw [View.canon_unit_zero hz3]
  simp only [View.readAt_eq_ld, harg2.read_unread, harg3.read_unread, harg7.read_unread, harg8.read_unread,
    View.ld_unit_zero (S := S512x256) hz2, View.ld_unit_zero (S := S2048x256) hz2]

/-- Case A leaves the key block in the first carried buffer. -/
theorem sout_A_0 (c : Dev nD) (i : grid0.Coords) (arg2 : Memref sig .tc .vmem S1x2048x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x512x256 .f32) (harg6 : arg6.IsWhole) (arg7 : Memref sig .tc .vmem S2048x256 .bf16) (harg7 : arg7.IsWhole) (arg8 : Memref sig .tc .vmem S2048x256 .bf16) (harg8 : arg8.IsWhole) (hc0 : cond0_0 i)
    (x0 : Vec F S1x2048x512 .f32) (x1 : Vec F S512x256 .f32) (x2 : Vec F S512x256 .f32) (x3 : Vec F S512x256 .f32) :
    sout0_A_0 c i arg2 harg2 arg3 harg3 arg4 harg4 arg5 harg5 arg6 harg6 arg7 harg7 arg8 harg8 hc0 x0 x1 x2 x3 = k0_pay2 x0 x2 := by
  unfold sout0_A_0
  rw [View.read_writes_eq_canon _ _ _ (scover0_A_0 c i arg2 harg2 arg3 harg3 arg4 harg4 arg5 harg5 arg6 harg6 arg7 harg7 arg8 harg8 hc0 x0 x1 x2 x3)]
  unfold kernelRun0_A
  dsimp only
  sl_unfold_words
  rw [View.canon_unit_zero hz2]
  simp only [View.readAt_eq_ld, harg2.read_unread, harg4.read_unread,
    View.ld_unit_zero (S := S512x256) hz2, View.ld_unit_zero (S := S1x2048x512) hz3]

/-- Case A leaves the value block in the second carried buffer. -/
theorem sout_A_1 (c : Dev nD) (i : grid0.Coords) (arg2 : Memref sig .tc .vmem S1x2048x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x512x256 .f32) (harg6 : arg6.IsWhole) (arg7 : Memref sig .tc .vmem S2048x256 .bf16) (harg7 : arg7.IsWhole) (arg8 : Memref sig .tc .vmem S2048x256 .bf16) (harg8 : arg8.IsWhole) (hc0 : cond0_0 i)
    (x0 : Vec F S1x2048x512 .f32) (x1 : Vec F S512x256 .f32) (x2 : Vec F S512x256 .f32) (x3 : Vec F S512x256 .f32) :
    sout0_A_1 c i arg2 harg2 arg3 harg3 arg4 harg4 arg5 harg5 arg6 harg6 arg7 harg7 arg8 harg8 hc0 x0 x1 x2 x3 = k0_pay3 x0 x3 := by
  unfold sout0_A_1
  rw [View.read_writes_eq_canon _ _ _ (scover0_A_1 c i arg2 harg2 arg3 harg3 arg4 harg4 arg5 harg5 arg6 harg6 arg7 harg7 arg8 harg8 hc0 x0 x1 x2 x3)]
  unfold kernelRun0_A
  dsimp only
  sl_unfold_words
  rw [View.canon_unit_zero hz2]
  simp only [View.readAt_eq_ld, harg2.read_unread, harg5.read_unread,
    View.ld_unit_zero (S := S512x256) hz2, View.ld_unit_zero (S := S1x2048x512) hz3]

/-- Case A's output tile: the same payload, over the key and value blocks the point has just stored. -/
theorem out_A_4 (c : Dev nD) (i : grid0.Coords) (arg2 : Memref sig .tc .vmem S1x2048x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x512x256 .f32) (harg6 : arg6.IsWhole) (arg7 : Memref sig .tc .vmem S2048x256 .bf16) (harg7 : arg7.IsWhole) (arg8 : Memref sig .tc .vmem S2048x256 .bf16) (harg8 : arg8.IsWhole) (hc0 : cond0_0 i)
    (x0 : Vec F S1x2048x512 .f32) (x1 : Vec F S512x256 .f32) (x2 : Vec F S512x256 .f32) (x3 : Vec F S512x256 .f32) :
    out0_A_4 c i arg2 harg2 arg3 harg3 arg4 harg4 arg5 harg5 arg6 harg6 arg7 harg7 arg8 harg8 hc0 x0 x1 x2 x3 = k0_pay4 (qrows i x0) x1 (k0_pay2 x0 x2) (k0_pay3 x0 x3) := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_run_names
  rw [View.canon_unit_zero hz3]
  simp only [View.readCov_unit_zero (S := S2048x256) _ hz2, View.readAt_eq_ld, harg2.read_unread, harg3.read_unread,
    harg4.read_unread, harg5.read_unread,
    View.ld_unit_zero (S := S512x256) hz2, View.ld_unit_zero (S := S1x2048x512) hz3]

end Cert.KernelIdeal.Pieces

end
-- ==== Proof.KernelBlocks.lean ====
/-
  Where the kernel's blocks sit in the arrays.

  The grid has 32 points; point `t` is query tile `t % 4` of batch item `t / 4`. Its input block is the whole
  2048 × 512 slab of batch item `t / 4`; each weight block is the whole 512 × 256 weight array; its output block is rows
  `512 · (t % 4) …` of batch item `t / 4`; and the body's query rows are rows `512 · (t % 4) + r` of the staged slab. The
  printed index maps are decided once over the grid (`idx_facts`); every block read below is then arithmetic on
  coordinates: an element of a block sits at block index × block size + its own coordinate.
-/
import proofs.«109641_j87574383165870_2_alg».proof.Proof.Gen.KernelIdeal.Value
import proofs.«109641_j87574383165870_2_alg».proof.Proof.KernelPieces
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.AttnValue

open Cert.KernelIdeal Cert.KernelIdeal.Gen Cert.KernelIdeal.Pieces Idealize.ShloMosaic.ValueIdx

variable (m : (ℓ : Loc nD τ sig) → Buf (Elt Ideal) ℓ) (ρ : Dev nD → PrngReg)

/-- The printed index maps and the query tile's row offset, decided over the 32 grid points: point `t` is query tile
    `t % 4` of batch item `t / 4`. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 4 ∧ win0_4.index t (1 : Fin 3) = t.val % 4 ∧ win0_4.index t (2 : Fin 3) = 0
    ∧ k0_off1 (grid0.coords t) (0 : Fin 3) = 0 ∧ k0_off1 (grid0.coords t) (1 : Fin 3) = 512 * (t.val % 4)
    ∧ k0_off1 (grid0.coords t) (2 : Fin 3) = 0 :=
  (by decide +kernel : ∀ t : Fin grid0.N, _)

/-- The batch item of grid point `t`. -/
def bOf (t : Fin cfg0.N) : Fin 8 := ⟨t.val / 4, by have h := t.isLt; have hN : cfg0.N = 32 := N_0; omega⟩

/-- Row `r` of point `t`'s query tile, as a row of the sequence. -/
def qOf (t : Fin cfg0.N) (r : Fin 512) : Fin 2048 := ⟨512 * (t.val % 4) + r.val, by have h := r.isLt; omega⟩

/-- The arguments as the region finds them, by coordinates. -/
abbrev xs (c : Dev nD) : Fin 8 → Fin 2048 → Fin 512 → EReal := fun b s f => V m c main_arg0 (ix3 b s f)
abbrev wq (c : Dev nD) : Fin 512 → Fin 256 → EReal := fun f d => V m c main_arg1 (ix2 f d)
abbrev wk (c : Dev nD) : Fin 512 → Fin 256 → EReal := fun f d => V m c main_arg2 (ix2 f d)
abbrev wv (c : Dev nD) : Fin 512 → Fin 256 → EReal := fun f d => V m c main_arg3 (ix2 f d)

/-- Point `t`'s input block is batch item `t / 4` of the input. -/
theorem iblk0_apply (c : Dev nD) (t : Fin cfg0.N) (s : Fin 2048) (f : Fin 512) :
    (iblk m c 0 t : Vec Ideal S1x2048x512 .f32) (ix3 (0 : Fin 1) s f) = xs m c (bOf t) s f := by
  show V m c main_arg0 (((cfg0.win 0).blk t).view.emb (ix3 (0 : Fin 1) s f)) = V m c main_arg0 (ix3 (bOf t) s f)
  obtain ⟨e0, e1, e2, -⟩ := idx_facts t
  refine congrArg (V m c main_arg0) ?_
  funext a; apply Fin.ext
  match a with
  | ⟨0, _⟩ => show win0_0.index t (0 : Fin 3) * 1 + 1 * 0 = t.val / 4; omega
  | ⟨1, _⟩ => show win0_0.index t (1 : Fin 3) * 2048 + 1 * s.val = s.val; omega
  | ⟨2, _⟩ => show win0_0.index t (2 : Fin 3) * 512 + 1 * f.val = f.val; omega

/-- Each weight window's block is the whole weight array, at every point. -/
theorem iblk1_apply (c : Dev nD) (t : Fin cfg0.N) (f : Fin 512) (d : Fin 256) :
    (iblk m c 1 t : Vec Ideal S512x256 .f32) (ix2 f d) = wq m c f d := by
  show V m c main_arg1 (((cfg0.win 1).blk t).view.emb (ix2 f d)) = V m c main_arg1 (ix2 f d)
  obtain ⟨-, -, -, e0, e1, -⟩ := idx_facts t
  refine congrArg (V m c main_arg1) ?_
  funext a; apply Fin.ext
  match a with
  | ⟨0, _⟩ => show win0_1.index t (0 : Fin 2) * 512 + 1 * f.val = f.val; omega
  | ⟨1, _⟩ => show win0_1.index t (1 : Fin 2) * 256 + 1 * d.val = d.val; omega

theorem iblk2_apply (c : Dev nD) (t : Fin cfg0.N) (f : Fin 512) (d : Fin 256) :
    (iblk m c 2 t : Vec Ideal S512x256 .f32) (ix2 f d) = wk m c f d := by
  show V m c main_arg2 (((cfg0.win 2).blk t).view.emb (ix2 f d)) = V m c main_arg2 (ix2 f d)
  obtain ⟨-, -, -, -, -, e0, e1, -⟩ := idx_facts t
  refine congrArg (V m c main_arg2) ?_
  funext a; apply Fin.ext
  match a with
  | ⟨0, _⟩ => show win0_2.index t (0 : Fin 2) * 512 + 1 * f.val = f.val; omega
  | ⟨1, _⟩ => show win0_2.index t (1 : Fin 2) * 256 + 1 * d.val = d.val; omega

theorem iblk3_apply (c : Dev nD) (t : Fin cfg0.N) (f : Fin 512) (d : Fin 256) :
    (iblk m c 3 t : Vec Ideal S512x256 .f32) (ix2 f d) = wv m c f d := by
  show V m c main_arg3 (((cfg0.win 3).blk t).view.emb (ix2 f d)) = V m c main_arg3 (ix2 f d)
  obtain ⟨-, -, -, -, -, -, -, e0, e1, -⟩ := idx_facts t
  refine congrArg (V m c main_arg3) ?_
  funext a; apply Fin.ext
  match a with
  | ⟨0, _⟩ => show win0_3.index t (0 : Fin 2) * 512 + 1 * f.val = f.val; omega
  | ⟨1, _⟩ => show win0_3.index t (1 : Fin 2) * 256 + 1 * d.val = d.val; omega

/-- The query tile's rows of a staged block: row `r` of the tile is row `512 · (t % 4) + r` of the block. -/
theorem qrows_apply (t : Fin cfg0.N) (X : Vec Ideal S1x2048x512 .f32) (r : Fin 512) (f : Fin 512) :
    qrows (grid0.coords t) X (ix3 (0 : Fin 1) r f) = X (ix3 (0 : Fin 1) (qOf t r) f) := by
  obtain ⟨-, -, -, -, -, -, -, -, -, -, -, -, o0, o1, o2⟩ := idx_facts t
  show X ((Rect.unit (s := S1x2048x512) (k0_off1 (grid0.coords t)) S1x512x512.size (k0_off1_inb (grid0.coords t))).idx (ix3 (0 : Fin 1) r f)) = _
  refine congrArg X ?_
  funext a; apply Fin.ext
  match a with
  | ⟨0, _⟩ => show k0_off1 (grid0.coords t) (0 : Fin 3) + 1 * 0 = 0; omega
  | ⟨1, _⟩ => show k0_off1 (grid0.coords t) (1 : Fin 3) + 1 * r.val = 512 * (t.val % 4) + r.val; omega
  | ⟨2, _⟩ => show k0_off1 (grid0.coords t) (2 : Fin 3) + 1 * f.val = f.val; omega

end Cert.KernelIdeal.AttnValue

end
-- ==== Proof.PayEntry.lean ====
/-
  The kernel body's arithmetic at one entry, at the ideal values.

  The body stores three values. The key block and the value block (`k0_pay2`, `k0_pay3`) are the plain products of the
  2048 × 512 input block with a 512 × 256 weight block: entry (k, d) is `∑ f, x[0, k, f] · w[f, d]` (the changes of float
  format are the identity at the ideal values, the accumulator is the zero splat). The output tile (`k0_pay4`) at
  (0, r, d) is the softmax-weighted sum `Attn.soft` of the value rows `v16[k, d]` by the score row
  `k ↦ ∑ d', (q[r, d'] · 1/16) · v15[k, d']`, where `q[r, d'] = ∑ f, v6[0, r, f] · v9[f, d']` is the projected query tile.
-/
import proofs.«109641_j87574383165870_2_alg».proof.Proof.Gen.KernelIdeal.Skeleton
import proofs.«109641_j87574383165870_2_alg».proof.Proof.AttnLaw
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayEntry

open Cert.KernelIdeal Cert.KernelIdeal.Gen Idealize.ShloMosaic Idealize.ShloMosaic.ValueIdx

/-- The input block with its leading unit axis dropped, at (k, f). -/
theorem pay1_entry (v32 : Vec Ideal S1x2048x512 .f32) (k : Fin 2048) (f : Fin 512) :
    k0_pay1 (F := Ideal) v32 (ix2 k f) = v32 (ix3 (0 : Fin 1) k f) := by
  unfold k0_pay1
  exact shapeCast_1ab_ab_apply v32 _ k f

/-! The product `dot_S2048x512_S512x256_S2048x256_1_0_0_1_n_n` read at (r, c). -/

theorem dotKV_lhs0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide),
    dif_pos (show (0 : Fin S2048x512.rank) ∈ dot_S2048x512_S512x256_S2048x256_1_0_0_1_n_n.lhsNonContracting by decide)]
  rfl

theorem dotKV_lhs1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q

theorem dotKV_rhsC (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q

theorem dotKV_rhsN (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide),
    dif_pos (show (1 : Fin S512x256.rank) ∈ dot_S2048x512_S512x256_S2048x256_1_0_0_1_n_n.rhsNonContracting by decide)]
  rfl

/-- Into the zero splat, entry (r, c) is the sum over the contracted coordinate of the operands' products. -/
theorem dotKV_apply {φ₁ φ₂ : FTy} (L : FVec Ideal S2048x512 φ₁) (R : FVec Ideal S512x256 φ₂) (r : Fin 2048) (c : Fin 256) :
    matmul dot_S2048x512_S512x256_S2048x256_1_0_0_1_n_n none L R (constant S2048x256 .f32 0x00000000#32) (ix2 r c)
      = ∑ f : Fin 512, L (ix2 r f) * R (ix2 f c) := by
  show FloatOps.matmul dot_S2048x512_S512x256_S2048x256_1_0_0_1_n_n none L R (constant S2048x256 .f32 0x00000000#32) (ix2 r c) = _
  rw [Ideal.matmul_constant_zero_apply, ← Equiv.sum_comp (contrEquiv1 dot_S2048x512_S512x256_S2048x256_1_0_0_1_n_n 512 rfl rfl).symm]
  refine Finset.sum_congr rfl fun f _ => ?_
  have hk := contrEquiv1_symm_val dot_S2048x512_S512x256_S2048x256_1_0_0_1_n_n 512 rfl rfl f
  have el : dot_S2048x512_S512x256_S2048x256_1_0_0_1_n_n.lhsIdx (ix2 r c) ((contrEquiv1 dot_S2048x512_S512x256_S2048x256_1_0_0_1_n_n 512 rfl rfl).symm f) = ix2 r f :=
    funext fun a => Fin.ext (by
      match a with
      | ⟨0, _⟩ => exact dotKV_lhs0 _ _
      | ⟨1, _⟩ => exact (dotKV_lhs1 _ _).trans hk)
  have er : dot_S2048x512_S512x256_S2048x256_1_0_0_1_n_n.rhsIdx (ix2 r c) ((contrEquiv1 dot_S2048x512_S512x256_S2048x256_1_0_0_1_n_n 512 rfl rfl).symm f) = ix2 f c :=
    funext fun a => Fin.ext (by
      match a with
      | ⟨0, _⟩ => exact (dotKV_rhsC _ _).trans hk
      | ⟨1, _⟩ => exact dotKV_rhsN _ _)
  rw [el, er]

/-! The product `dot_S512x512_S512x256_S512x256_1_0_0_1_n_n` read at (r, c). -/

theorem dotQ_lhs0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide),
    dif_pos (show (0 : Fin S512x512.rank) ∈ dot_S512x512_S512x256_S512x256_1_0_0_1_n_n.lhsNonContracting by decide)]
  rfl

theorem dotQ_lhs1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q

theorem dotQ_rhsC (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q

theorem dotQ_rhsN (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide),
    dif_pos (show (1 : Fin S512x256.rank) ∈ dot_S512x512_S512x256_S512x256_1_0_0_1_n_n.rhsNonContracting by decide)]
  rfl

/-- Into the zero splat, entry (r, c) is the sum over the contracted coordinate of the operands' products. -/
theorem dotQ_apply {φ₁ φ₂ : FTy} (L : FVec Ideal S512x512 φ₁) (R : FVec Ideal S512x256 φ₂) (r : Fin 512) (c : Fin 256) :
    matmul dot_S512x512_S512x256_S512x256_1_0_0_1_n_n none L R (constant S512x256 .f32 0x00000000#32) (ix2 r c)
      = ∑ f : Fin 512, L (ix2 r f) * R (ix2 f c) := by
  show FloatOps.matmul dot_S512x512_S512x256_S512x256_1_0_0_1_n_n none L R (constant S512x256 .f32 0x00000000#32) (ix2 r c) = _
  rw [Ideal.matmul_constant_zero_apply, ← Equiv.sum_comp (contrEquiv1 dot_S512x512_S512x256_S512x256_1_0_0_1_n_n 512 rfl rfl).symm]
  refine Finset.sum_congr rfl fun f _ => ?_
  have hk := contrEquiv1_symm_val dot_S512x512_S512x256_S512x256_1_0_0_1_n_n 512 rfl rfl f
  have el : dot_S512x512_S512x256_S512x256_1_0_0_1_n_n.lhsIdx (ix2 r c) ((contrEquiv1 dot_S512x512_S512x256_S512x256_1_0_0_1_n_n 512 rfl rfl).symm f) = ix2 r f :=
    funext fun a => Fin.ext (by
      match a with
      | ⟨0, _⟩ => exact dotQ_lhs0 _ _
      | ⟨1, _⟩ => exact (dotQ_lhs1 _ _).trans hk)
  have er : dot_S512x512_S512x256_S512x256_1_0_0_1_n_n.rhsIdx (ix2 r c) ((contrEquiv1 dot_S512x512_S512x256_S512x256_1_0_0_1_n_n 512 rfl rfl).symm f) = ix2 f c :=
    funext fun a => Fin.ext (by
      match a with
      | ⟨0, _⟩ => exact (dotQ_rhsC _ _).trans hk
      | ⟨1, _⟩ => exact dotQ_rhsN _ _)
  rw [el, er]

/-! The product `dot_S512x256_S2048x256_S512x2048_1_1_0_0_n_n` read at (r, c). -/

theorem dotS_lhs0 (i : S512x2048.Idx) (q : dot_S512x256_S2048x256_S512x2048_1_1_0_0_n_n.contr.Idx) :
    (dot_S512x256_S2048x256_S512x2048_1_1_0_0_n_n.lhsIdx i q 0).val = (i 0).val := by
  unfold DotDims.lhsIdx
  rw [dif_neg (show ¬(0 : Fin S512x256.rank) ∈ dot_S512x256_S2048x256_S512x2048_1_1_0_0_n_n.lhsBatch by decide),
    dif_pos (show (0 : Fin S512x256.rank) ∈ dot_S512x256_S2048x256_S512x2048_1_1_0_0_n_n.lhsNonContracting by decide)]
  rfl

theorem dotS_lhs1 (i : S512x2048.Idx) (q : dot_S512x256_S2048x256_S512x2048_1_1_0_0_n_n.contr.Idx) :
    (dot_S512x256_S2048x256_S512x2048_1_1_0_0_n_n.lhsIdx i q 1).val = (q ⟨0, by decide⟩).val :=
  dot_S512x256_S2048x256_S512x2048_1_1_0_0_n_n.lhsIdx_val_of_single rfl i q

theorem dotS_rhsC (i : S512x2048.Idx) (q : dot_S512x256_S2048x256_S512x2048_1_1_0_0_n_n.contr.Idx) :
    (dot_S512x256_S2048x256_S512x2048_1_1_0_0_n_n.rhsIdx i q 1).val = (q ⟨0, by decide⟩).val :=
  dot_S512x256_S2048x256_S512x2048_1_1_0_0_n_n.rhsIdx_val_of_single rfl i q

theorem dotS_rhsN (i : S512x2048.Idx) (q : dot_S512x256_S2048x256_S512x2048_1_1_0_0_n_n.contr.Idx) :
    (dot_S512x256_S2048x256_S512x2048_1_1_0_0_n_n.rhsIdx i q 0).val = (i 1).val := by
  unfold DotDims.rhsIdx
  rw [dif_neg (show ¬(0 : Fin S2048x256.rank) ∈ dot_S512x256_S2048x256_S512x2048_1_1_0_0_n_n.rhsBatch by decide),
    dif_pos (show (0 : Fin S2048x256.rank) ∈ dot_S512x256_S2048x256_S512x2048_1_1_0_0_n_n.rhsNonContracting by decide)]
  rfl

/-- Into the zero splat, entry (r, c) is the sum over the contracted coordinate of the operands' products. -/
theorem dotS_apply {φ₁ φ₂ : FTy} (L : FVec Ideal S512x256 φ₁) (R : FVec Ideal S2048x256 φ₂) (r : Fin 512) (c : Fin 2048) :
    matmul dot_S512x256_S2048x256_S512x2048_1_1_0_0_n_n none L R (constant S512x2048 .f32 0x00000000#32) (ix2 r c)
      = ∑ f : Fin 256, L (ix2 r f) * R (ix2 c f) := by
  show FloatOps.matmul dot_S512x256_S2048x256_S512x2048_1_1_0_0_n_n none L R (constant S512x2048 .f32 0x00000000#32) (ix2 r c) = _
  rw [Ideal.matmul_constant_zero_apply, ← Equiv.sum_comp (contrEquiv1 dot_S512x256_S2048x256_S512x2048_1_1_0_0_n_n 256 rfl rfl).symm]
  refine Finset.sum_congr rfl fun f _ => ?_
  have hk := contrEquiv1_symm_val dot_S512x256_S2048x256_S512x2048_1_1_0_0_n_n 256 rfl rfl f
  have el : dot_S512x256_S2048x256_S512x2048_1_1_0_0_n_n.lhsIdx (ix2 r c) ((contrEquiv1 dot_S512x256_S2048x256_S512x2048_1_1_0_0_n_n 256 rfl rfl).symm f) = ix2 r f :=
    funext fun a => Fin.ext (by
      match a with
      | ⟨0, _⟩ => exact dotS_lhs0 _ _
      | ⟨1, _⟩ => exact (dotS_lhs1 _ _).trans hk)
  have er : dot_S512x256_S2048x256_S512x2048_1_1_0_0_n_n.rhsIdx (ix2 r c) ((contrEquiv1 dot_S512x256_S2048x256_S512x2048_1_1_0_0_n_n 256 rfl rfl).symm f) = ix2 c f :=
    funext fun a => Fin.ext (by
      match a with
      | ⟨1, _⟩ => exact (dotS_rhsC _ _).trans hk
      | ⟨0, _⟩ => exact dotS_rhsN _ _)
  rw [el, er]

/-! The product `dot_S512x2048_S2048x256_S512x256_1_0_0_1_n_n` read at (r, c). -/

theorem dotO_lhs0 (i : S512x256.Idx) (q : dot_S512x2048_S2048x256_S512x256_1_0_0_1_n_n.contr.Idx) :
    (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide),
    dif_pos (show (0 : Fin S512x2048.rank) ∈ dot_S512x2048_S2048x256_S512x256_1_0_0_1_n_n.lhsNonContracting by decide)]
  rfl

theorem dotO_lhs1 (i : S512x256.Idx) (q : dot_S512x2048_S2048x256_S512x256_1_0_0_1_n_n.contr.Idx) :
    (dot_S512x2048_S2048x256_S512x256_1_0_0_1_n_n.lhsIdx i q 1).val = (q ⟨0, by decide⟩).val :=
  dot_S512x2048_S2048x256_S512x256_1_0_0_1_n_n.lhsIdx_val_of_single rfl i q

theorem dotO_rhsC (i : S512x256.Idx) (q : dot_S512x2048_S2048x256_S512x256_1_0_0_1_n_n.contr.Idx) :
    (dot_S512x2048_S2048x256_S512x256_1_0_0_1_n_n.rhsIdx i q 0).val = (q ⟨0, by decide⟩).val :=
  dot_S512x2048_S2048x256_S512x256_1_0_0_1_n_n.rhsIdx_val_of_single rfl i q

theorem dotO_rhsN (i : S512x256.Idx) (q : dot_S512x2048_S2048x256_S512x256_1_0_0_1_n_n.contr.Idx) :
    (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide),
    dif_pos (show (1 : Fin S2048x256.rank) ∈ dot_S512x2048_S2048x256_S512x256_1_0_0_1_n_n.rhsNonContracting by decide)]
  rfl

/-- Into the zero splat, entry (r, c) is the sum over the contracted coordinate of the operands' products. -/
theorem dotO_apply {φ₁ φ₂ : FTy} (L : FVec Ideal S512x2048 φ₁) (R : FVec Ideal S2048x256 φ₂) (r : Fin 512) (c : Fin 256) :
    matmul dot_S512x2048_S2048x256_S512x256_1_0_0_1_n_n none L R (constant S512x256 .f32 0x00000000#32) (ix2 r c)
      = ∑ f : Fin 2048, L (ix2 r f) * R (ix2 f c) := by
  show FloatOps.matmul dot_S512x2048_S2048x256_S512x256_1_0_0_1_n_n none L R (constant S512x256 .f32 0x00000000#32) (ix2 r c) = _
  rw [Ideal.matmul_constant_zero_apply, ← Equiv.sum_comp (contrEquiv1 dot_S512x2048_S2048x256_S512x256_1_0_0_1_n_n 2048 rfl rfl).symm]
  refine Finset.sum_congr rfl fun f _ => ?_
  have hk := contrEquiv1_symm_val dot_S512x2048_S2048x256_S512x256_1_0_0_1_n_n 2048 rfl rfl f
  have el : dot_S512x2048_S2048x256_S512x256_1_0_0_1_n_n.lhsIdx (ix2 r c) ((contrEquiv1 dot_S512x2048_S2048x256_S512x256_1_0_0_1_n_n 2048 rfl rfl).symm f) = ix2 r f :=
    funext fun a => Fin.ext (by
      match a with
      | ⟨0, _⟩ => exact dotO_lhs0 _ _
      | ⟨1, _⟩ => exact (dotO_lhs1 _ _).trans hk)
  have er : dot_S512x2048_S2048x256_S512x256_1_0_0_1_n_n.rhsIdx (ix2 r c) ((contrEquiv1 dot_S512x2048_S2048x256_S512x256_1_0_0_1_n_n 2048 rfl rfl).symm f) = ix2 f c :=
    funext fun a => Fin.ext (by
      match a with
      | ⟨0, _⟩ => exact (dotO_rhsC _ _).trans hk
      | ⟨1, _⟩ => exact dotO_rhsN _ _)
  rw [el, er]

/-! Keepdims column forms of the layout operations, read at an index. -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, c)`, the operand's one column at row `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- A per-row value kept as a column and spread over the row reads the row's value. -/
theorem keepdims_apply (x : FVec Ideal S512 .f32) (r : Fin 512) (k : Fin 2048) :
    broadcastTo S512x2048 (shapeCast S512x1 x shapeCasts_S512_S512x1) broadcasts_S512x1_S512x2048 (ix2 r k)
      = x (ix1 r) :=
  (broadcastTo_a1_ab_apply _ broadcasts_S512x1_S512x2048 r k).trans
    (shapeCast_a_a1_apply x shapeCasts_S512_S512x1 r (0 : Fin 1))

/-- Over row `r` the index with coordinate `k` inserted on the reduced axis is `(r, k)`. -/
theorem lift_row (r : Fin 512) (k : Fin 2048) :
    (reduces_S512x2048_S512 : S512x2048.Reduces [1] S512).lift (ix1 r) k = ix2 r k :=
  funext fun a => Fin.ext (by
    match a with
    | ⟨0, _⟩ => rfl
    | ⟨1, _⟩ => rfl)

/-- The row maximum at `r`: the fold of `max` over the row from the word of −∞. -/
theorem rowMax_apply (S : FVec Ideal S512x2048 .f32) (r : Fin 512) :
    multiReduction .maximumf [1] S512 S 0xFF800000#32 reduces_S512x2048_S512 (.inl rfl) rfl (ix1 r)
      = Attn.rowMax (fun k : Fin 2048 => S (ix2 r k)) := by
  refine (Ideal.multiReduction_maximumf_single S _ reduces_S512x2048_S512 (.inl rfl) rfl (ix1 r)).trans ?_
  unfold Attn.rowMax
  exact congrArg (fun g : Fin 2048 → EReal => (Finset.univ : Finset (Fin 2048)).fold max (Ideal.ofBits .f32 0xFF800000#32 : EReal) g)
    (funext fun k => congrArg S (lift_row r k))

/-- The row sum at `r`. -/
theorem rowSum_apply (E : FVec Ideal S512x2048 .f32) (r : Fin 512) :
    multiReduction .add [1] S512 E 0x00000000#32 reduces_S512x2048_S512 (.inl rfl) rfl (ix1 r)
      = ∑ k : Fin 2048, E (ix2 r k) := by
  refine (Ideal.multiReduction_add_single E _ reduces_S512x2048_S512 (.inl rfl) rfl (ix1 r)).trans ?_
  exact Finset.sum_congr rfl fun k _ => congrArg E (lift_row r k)

/-! The output tile's stages, as functions of the values they read. -/

/-- The projected query tile: the 512 × 512 input tile against the 512 × 256 weight block. -/
def qtile (v6 : Vec Ideal S1x512x512 .f32) (v9 : Vec Ideal S512x256 .f32) : FVec Ideal S512x256 .f32 :=
  matmul dot_S512x512_S512x256_S512x256_1_0_0_1_n_n none
    (truncf .bf16 (shapeCast S512x512 v6 shapeCasts_S1x512x512_S512x512) bitsLt_bf16_f32)
    (truncf .bf16 v9 bitsLt_bf16_f32) (constant (F := Ideal) S512x256 .f32 0x00000000#32)

/-- The score tile: the scaled query tile against the key block, contracted over the 256 channels. -/
def scores (v6 : Vec Ideal S1x512x512 .f32) (v9 : Vec Ideal S512x256 .f32) (v15 : Vec Ideal S2048x256 .bf16) :
    FVec Ideal S512x2048 .f32 :=
  matmul (φ₂ := .bf16) dot_S512x256_S2048x256_S512x2048_1_1_0_0_n_n none
    (truncf .bf16 (mulf (qtile v6 v9) (broadcast S512x256 (Scalar.ofBits .f32 0x3D800000#32 : Ideal .f32))) bitsLt_bf16_f32)
    v15 (constant (F := Ideal) S512x2048 .f32 0x00000000#32)

/-- The exponentials of a score tile's entries less their row's maximum. -/
def expRow (S : FVec Ideal S512x2048 .f32) : FVec Ideal S512x2048 .f32 :=
  Idealize.ShloMosaic.exp (subf S
    (broadcastTo S512x2048
      (shapeCast S512x1 (multiReduction .maximumf [1] S512 S 0xFF800000#32 reduces_S512x2048_S512 (.inl rfl) rfl)
        shapeCasts_S512_S512x1)
      broadcasts_S512x1_S512x2048))

/-- The softmax weights of a score tile: each exponential over its row's sum. -/
def weights (S : FVec Ideal S512x2048 .f32) : FVec Ideal S512x2048 .f32 :=
  divf (expRow S)
    (broadcastTo S512x2048
      (shapeCast S512x1 (multiReduction .add [1] S512 (expRow S) 0x00000000#32 reduces_S512x2048_S512 (.inl rfl) rfl)
        shapeCasts_S512_S512x1)
      broadcasts_S512x1_S512x2048)

/-- The output tile from a score tile and the value block. -/
def outTile (S : FVec Ideal S512x2048 .f32) (v16 : Vec Ideal S2048x256 .bf16) : FVec Ideal S1x512x256 .f32 :=
  shapeCast S1x512x256
    (matmul (φ₂ := .bf16) dot_S512x2048_S2048x256_S512x256_1_0_0_1_n_n none (truncf .bf16 (weights S) bitsLt_bf16_f32) v16
      (constant (F := Ideal) S512x256 .f32 0x00000000#32))
    shapeCasts_S512x256_S1x512x256

/-- The stored payload is the output tile of the score tile. -/
theorem pay4_eq (v6 : Vec Ideal S1x512x512 .f32) (v9 : Vec Ideal S512x256 .f32) (v15 v16 : Vec Ideal S2048x256 .bf16) :
    k0_pay4 (F := Ideal) v6 v9 v15 v16 = outTile (scores v6 v9 v15) v16 := rfl

/-- The projected query tile at (r, d'). -/
theorem qtile_apply (v6 : Vec Ideal S1x512x512 .f32) (v9 : Vec Ideal S512x256 .f32) (r : Fin 512) (d' : Fin 256) :
    qtile v6 v9 (ix2 r d') = ∑ f : Fin 512, v6 (ix3 (0 : Fin 1) r f) * v9 (ix2 f d') := by
  unfold qtile
  refine (dotQ_apply _ _ r d').trans ?_
  exact Finset.sum_congr rfl fun f _ =>
    congrArg (· * v9 (ix2 f d')) (shapeCast_1ab_ab_apply v6 shapeCasts_S1x512x512_S512x512 r f)

/-- The score tile at (r, k): the scaled-query score of query row r against key row k. -/
theorem scores_apply (v6 : Vec Ideal S1x512x512 .f32) (v9 : Vec Ideal S512x256 .f32) (v15 : Vec Ideal S2048x256 .bf16)
    (r : Fin 512) (k : Fin 2048) :
    scores v6 v9 v15 (ix2 r k)
      = Attn.scoreQ (fun d' : Fin 256 => ∑ f : Fin 512, v6 (ix3 (0 : Fin 1) r f) * v9 (ix2 f d'))
          (fun d' : Fin 256 => v15 (ix2 k d')) := by
  unfold scores Attn.scoreQ
  refine (dotS_apply (φ₂ := .bf16) _ v15 r k).trans ?_
  exact Finset.sum_congr rfl fun d' _ =>
    congrArg (fun q : EReal => q * (Ideal.ofBits .f32 0x3D800000#32 : EReal) * v15 (ix2 k d')) (qtile_apply v6 v9 r d')

/-- An exponential at (r, k). -/
theorem expRow_apply (S : FVec Ideal S512x2048 .f32) (r : Fin 512) (k : Fin 2048) :
    expRow S (ix2 r k)
      = Ideal.exp (S (ix2 r k) - Attn.rowMax (fun k' : Fin 2048 => S (ix2 r k'))) := by
  unfold expRow
  show Ideal.exp (S (ix2 r k) - _) = _
  rw [keepdims_apply, rowMax_apply]

/-- A softmax weight at (r, k). -/
theorem weights_apply (S : FVec Ideal S512x2048 .f32) (r : Fin 512) (k : Fin 2048) :
    weights S (ix2 r k)
      = Ideal.div (Ideal.exp (S (ix2 r k) - Attn.rowMax (fun k' : Fin 2048 => S (ix2 r k'))))
          (∑ k' : Fin 2048, Ideal.exp (S (ix2 r k') - Attn.rowMax (fun k'' : Fin 2048 => S (ix2 r k'')))) := by
  unfold weights
  show Ideal.div (expRow S (ix2 r k)) _ = _
  rw [keepdims_apply, rowSum_apply, expRow_apply]
  exact congrArg (Ideal.div _) (Finset.sum_congr rfl fun k' _ => expRow_apply S r k')

/-- The output tile at (0, r, d): the softmax-weighted sum of the value rows. -/
theorem outTile_apply (S : FVec Ideal S512x2048 .f32) (v16 : Vec Ideal S2048x256 .bf16) (r : Fin 512) (d : Fin 256) :
    outTile S v16 (ix3 (0 : Fin 1) r d)
      = Attn.soft (fun k : Fin 2048 => S (ix2 r k)) (fun k : Fin 2048 => v16 (ix2 k d)) := by
  unfold outTile Attn.soft
  refine (shapeCast_ab_1ab_apply _ shapeCasts_S512x256_S1x512x256 (0 : Fin 1) r d).trans ?_
  refine (dotO_apply (φ₂ := .bf16) _ v16 r d).trans ?_
  exact Finset.sum_congr rfl fun k _ => congrArg (· * v16 (ix2 k d)) (weights_apply S r k)

/-- The key block at (k, d): row k of the input block against column d of the weight block. -/
theorem pay2_entry (v32 : Vec Ideal S1x2048x512 .f32) (v35 : Vec Ideal S512x256 .f32) (k : Fin 2048) (d : Fin 256) :
    k0_pay2 (F := Ideal) v32 v35 (ix2 k d) = ∑ f : Fin 512, v32 (ix3 (0 : Fin 1) k f) * v35 (ix2 f d) := by
  unfold k0_pay2
  rw [shapeCast_self]
  refine (dotKV_apply (k0_pay1 v32) (truncf .bf16 v35 bitsLt_bf16_f32) k d).trans ?_
  exact Finset.sum_congr rfl fun f _ => congrArg (· * v35 (ix2 f d)) (pay1_entry v32 k f)

/-- The value block at (k, d): the same product with the other weight block. -/
theorem pay3_entry (v32 : Vec Ideal S1x2048x512 .f32) (v37 : Vec Ideal S512x256 .f32) (k : Fin 2048) (d : Fin 256) :
    k0_pay3 (F := Ideal) v32 v37 (ix2 k d) = ∑ f : Fin 512, v32 (ix3 (0 : Fin 1) k f) * v37 (ix2 f d) := by
  unfold k0_pay3
  rw [shapeCast_self]
  refine (dotKV_apply (k0_pay1 v32) (truncf .bf16 v37 bitsLt_bf16_f32) k d).trans ?_
  exact Finset.sum_congr rfl fun f _ => congrArg (· * v37 (ix2 f d)) (pay1_entry v32 k f)

/-- The output tile at (0, r, d): the softmax-weighted sum of the value rows by the scaled-query score row. -/
theorem pay4_entry (v6 : Vec Ideal S1x512x512 .f32) (v9 : Vec Ideal S512x256 .f32) (v15 v16 : Vec Ideal S2048x256 .bf16)
    (r : Fin 512) (d : Fin 256) :
    k0_pay4 (F := Ideal) v6 v9 v15 v16 (ix3 (0 : Fin 1) r d)
      = Attn.soft
          (fun k : Fin 2048 => Attn.scoreQ (fun d' : Fin 256 => ∑ f : Fin 512, v6 (ix3 (0 : Fin 1) r f) * v9 (ix2 f d'))
            (fun d' : Fin 256 => v15 (ix2 k d')))
          (fun k : Fin 2048 => v16 (ix2 k d)) := by
  rw [pay4_eq, outTile_apply]
  exact congrArg (fun s : Fin 2048 → EReal => Attn.soft s (fun k : Fin 2048 => v16 (ix2 k d)))
    (funext fun k => scores_apply v6 v9 v15 r k)

end Cert.KernelIdeal.PayEntry

end
-- ==== Proof.KernelValue.lean ====
/-
  The kernel's result array, at the ideal values: the attention entries of the arguments.

  The kernel walks 32 grid points, point `t` = query tile `t % 4` of batch item `t / 4`. At an item's first tile it
  projects the item's keys and values and leaves them in two buffers it carries to the item's other tiles; at every
  tile it projects the tile's queries, scales them by 1/16, scores them against the carried keys, normalises the
  scores' exponentials row by row and sums the carried values with those weights.

  So: (1) after EVERY point the carried buffers hold the key rows and the value rows of the point's batch item
  (`carried_eq`, by induction on the point: stored whole at `t % 4 = 0`, left alone otherwise, and `(t - 1) / 4 = t / 4`
  there); (2) what point `t` leaves in the output's staging buffer is the output payload of its query rows, the query
  weights and those rows (`out_eq`), whose entry (0, r, d) is the attention entry of batch item `t / 4`, query row
  `512 · (t % 4) + r`, channel `d` (`tile_apply`, from the payload read at an index); (3) that is block `t` of one
  whole-array function `G` (`flushed_eq`), the 32 blocks cover the array (`cover`: the point of index (b, q, d) is
  `4 b + q / 512`), hence the array after the run is `G` (`final`, `run`).
-/
import proofs.«109641_j87574383165870_2_alg».proof.Proof.KernelBlocks
import proofs.«109641_j87574383165870_2_alg».proof.Proof.PayEntry
import proofs.«109641_j87574383165870_2_alg».proof.Proof.AttnLaw

noncomputable section

open Idealize.ShloMosaic Idealize.ShloMosaic.TcCoe Idealize.SL.Sem
open Idealize.ShloMosaic.Pipeline (Dat)

namespace Cert.KernelIdeal.AttnValue

open Cert.KernelIdeal Cert.KernelIdeal.Gen Cert.KernelIdeal.Pieces Cert.KernelIdeal.PayEntry Idealize.ShloMosaic.ValueIdx

variable (m : (ℓ : Loc nD τ sig) → Buf (Elt Ideal) ℓ) (ρ : Dev nD → PrngReg)

/-- The key rows of batch item `b`: entry (k, d) is row `k` of the item against column `d` of the key weights. -/
def Kblk (c : Dev nD) (b : Fin 8) : Vec Ideal S2048x256 .bf16 :=
  fun j => Attn.proj (xs m c) (wk m c) b ⟨(j 0).val, idx2_lt0 j⟩ ⟨(j 1).val, idx2_lt1 j⟩

/-- The value rows of batch item `b`. -/
def Vblk (c : Dev nD) (b : Fin 8) : Vec Ideal S2048x256 .bf16 :=
  fun j => Attn.proj (xs m c) (wv m c) b ⟨(j 0).val, idx2_lt0 j⟩ ⟨(j 1).val, idx2_lt1 j⟩

/-- The key payload of point `t`'s blocks is the key rows of its batch item. -/
theorem pay2_blk (c : Dev nD) (t : Fin cfg0.N) : k0_pay2 (iblk m c 0 t) (iblk m c 2 t) = Kblk m c (bOf t) := by
  funext j
  obtain ⟨k, d, rfl⟩ : ∃ (k : Fin 2048) (d : Fin 256), j = ix2 k d := ⟨j 0, j 1, eq_ix2 j⟩
  refine (pay2_entry (iblk m c 0 t) (iblk m c 2 t) k d).trans ?_
  show _ = Attn.proj (xs m c) (wk m c) (bOf t) k d
  unfold Attn.proj
  refine Finset.sum_congr rfl fun f _ => ?_
  rw [iblk0_apply, iblk2_apply]

/-- The value payload of point `t`'s blocks is the value rows of its batch item. -/
theorem pay3_blk (c : Dev nD) (t : Fin cfg0.N) : k0_pay3 (iblk m c 0 t) (iblk m c 3 t) = Vblk m c (bOf t) := by
  funext j
  obtain ⟨k, d, rfl⟩ : ∃ (k : Fin 2048) (d : Fin 256), j = ix2 k d := ⟨j 0, j 1, eq_ix2 j⟩
  refine (pay3_entry (iblk m c 0 t) (iblk m c 3 t) k d).trans ?_
  show _ = Attn.proj (xs m c) (wv m c) (bOf t) k d
  unfold Attn.proj
  refine Finset.sum_congr rfl fun f _ => ?_
  rw [iblk0_apply, iblk3_apply]

/-- THE CARRIED BUFFERS after every point hold the key rows and the value rows of the point's batch item: stored at
    the item's first query tile, untouched at its other three — by induction on the point. -/
theorem carried_eq (c : Dev nD) : ∀ (n : ℕ) (h : n < cfg0.N),
    (outsAt0 m c n h).2.1 = Kblk m c (bOf ⟨n, h⟩) ∧ (outsAt0 m c n h).2.2 = Vblk m c (bOf ⟨n, h⟩)
  | 0, h => by
    have h0 : (⟨0, h⟩ : Fin cfg0.N).val % 4 = 0 := rfl
    rw [outsAt0_A m c ⟨0, h⟩ h0]
    dsimp only
    exact ⟨(sout_A_0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) ((hcond0_0 ⟨0, h⟩).mpr h0) (iblk m c 0 ⟨0, h⟩) (iblk m c 1 ⟨0, h⟩) (iblk m c 2 ⟨0, h⟩) (iblk m c 3 ⟨0, h⟩)).trans (pay2_blk m c ⟨0, h⟩),
      (sout_A_1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) ((hcond0_0 ⟨0, h⟩).mpr h0) (iblk m c 0 ⟨0, h⟩) (iblk m c 1 ⟨0, h⟩) (iblk m c 2 ⟨0, h⟩) (iblk m c 3 ⟨0, h⟩)).trans (pay3_blk m c ⟨0, h⟩)⟩
  | n + 1, h => by
    by_cases h0 : (⟨n + 1, h⟩ : Fin cfg0.N).val % 4 = 0
    · rw [outsAt0_A m c ⟨n + 1, h⟩ h0]
      dsimp only
      exact ⟨(sout_A_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩)).trans (pay2_blk m c ⟨n + 1, h⟩),
        (sout_A_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩)).trans (pay3_blk m c ⟨n + 1, h⟩)⟩
    · rw [outsAt0_B m c ⟨n + 1, h⟩ h0]
      dsimp only
      unfold sout0_B_0 sout0_B_1
      have ih := carried_eq c n (Nat.lt_of_succ_lt h)
      have hb : bOf ⟨n + 1, h⟩ = bOf ⟨n, Nat.lt_of_succ_lt h⟩ := Fin.ext (by
        show (n + 1) / 4 = n / 4
        have : (n + 1) % 4 ≠ 0 := h0
        omega)
      rw [hb]
      exact ih

/-- What point `t` leaves in the output's staging buffer, named: the output payload of the point's query rows, the
    query weights, and the key and value rows of its batch item. -/
def tile (c : Dev nD) (t : Fin cfg0.N) : Vec Ideal S1x512x256 .f32 :=
  k0_pay4 (qrows (grid0.coords t) (iblk m c 0 t)) (iblk m c 1 t) (Kblk m c (bOf t)) (Vblk m c (bOf t))

theorem out_eq (c : Dev nD) (t : Fin cfg0.N) : (outsAt0 m c t.val t.isLt).1 = tile m c t := by
  by_cases h0 : t.val % 4 = 0
  · rw [outsAt0_A m c t h0]
    dsimp only
    refine (out_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)).trans ?_
    unfold tile
    rw [pay2_blk m c t, pay3_blk m c t]
  · rw [outsAt0_B m c t h0]
    dsimp only
    refine (out_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (iblk m c 3 t) _ _).trans ?_
    have hN : cfg0.N = 32 := N_0
    have hlt : t.val - 1 < cfg0.N := Nat.lt_of_le_of_lt (Nat.sub_le _ _) t.isLt
    have hb : bOf ⟨t.val - 1, hlt⟩ = bOf t := Fin.ext (by
      show (t.val - 1) / 4 = t.val / 4
      omega)
    unfold tile
    rw [(carried_eq m c (t.val - 1) hlt).1, (carried_eq m c (t.val - 1) hlt).2, hb]

/-- The tile at (0, r, d) is the attention entry of batch item `t / 4`, query row `512 · (t % 4) + r`, channel `d`. -/
theorem tile_apply (c : Dev nD) (t : Fin cfg0.N) (r : Fin 512) (d : Fin 256) :
    tile m c t (ix3 (0 : Fin 1) r d) = Attn.outQ (xs m c) (wq m c) (wk m c) (wv m c) (bOf t) (qOf t r) d := by
  unfold tile
  refine (pay4_entry _ _ _ _ r d).trans ?_
  have h1 : (fun d' : Fin 256 => ∑ f : Fin 512, qrows (grid0.coords t) (iblk m c 0 t) (ix3 (0 : Fin 1) r f) * (iblk m c 1 t : Vec Ideal S512x256 .f32) (ix2 f d'))
      = Attn.proj (xs m c) (wq m c) (bOf t) (qOf t r) := funext fun d' => by
    unfold Attn.proj
    refine Finset.sum_congr rfl fun f _ => ?_
    rw [qrows_apply, iblk0_apply, iblk1_apply]
  rw [h1]
  rfl

/-- The result array the kernel ends with: the attention entry at every index. -/
def G (c : Dev nD) : Buf (Elt Ideal) ((c : Thread nD τ).loc main_v0) :=
  fun i => Attn.outQ (xs m c) (wq m c) (wk m c) (wv m c) ⟨(i 0).val, (i 0).isLt⟩ ⟨(i 1).val, (i 1).isLt⟩ ⟨(i 2).val, (i 2).isLt⟩

/-- What point `t` writes back is block `t` of `G`. -/
theorem flushed_eq (c : Dev nD) (t : Fin cfg0.N) :
    (dats m 0 c).flushed 4 t = ((cfg0.win 4).blk t).view.read (Elt Ideal) (G m c) := by
  rw [Value.flushed4, out_eq]
  funext y
  obtain ⟨z, r, d, rfl⟩ : ∃ (z : Fin 1) (r : Fin 512) (d : Fin 256), y = ix3 z r d := ⟨y 0, y 1, y 2, eq_ix3 y⟩
  obtain rfl : z = 0 := Subsingleton.elim _ _
  show tile m c t (ix3 (0 : Fin 1) r d) = G m c (((cfg0.win 4).blk t).view.emb (ix3 (0 : Fin 1) r d))
  rw [tile_apply]
  obtain ⟨-, -, -, -, -, -, -, -, -, e0, e1, e2, -⟩ := idx_facts t
  unfold G
  congr 1 <;> apply Fin.ext
  · show t.val / 4 = win0_4.index t (0 : Fin 3) * 1 + 1 * 0; omega
  · show 512 * (t.val % 4) + r.val = win0_4.index t (1 : Fin 3) * 512 + 1 * r.val; omega
  · show d.val = win0_4.index t (2 : Fin 3) * 256 + 1 * d.val; omega

/-- An index of the result array is in point `t`'s block iff each coordinate is in the block's range on its axis. -/
theorem mem_blk (t : Fin cfg0.N) (i : S8x2048x256.Idx) :
    i ∈ ((cfg0.win 4).blk t).view.set ↔ ∀ a : Fin 3, win0_4.index t a * S1x512x256.size a ≤ (i a).val ∧ (i a).val < win0_4.index t a * S1x512x256.size a + S1x512x256.size a := by
  show i ∈ ((View.whole main_v0).slice (win0_4.rect t)).set ↔ _
  rw [View.set_slice_whole, Rect.mem_set_unit]
  exact Iff.rfl

/-- Every index of the result array is in the block of the point of its batch item and query tile. -/
theorem cover (i : S8x2048x256.Idx) : ∃ t : Fin cfg0.N, (cfg0.win 4).flush t = true ∧ i ∈ ((cfg0.win 4).blk t).view.set := by
  have hN : cfg0.N = 32 := N_0
  have h0 : (i 0).val < 8 := (i 0).isLt
  have h1 : (i 1).val < 2048 := (i 1).isLt
  have h2 : (i 2).val < 256 := (i 2).isLt
  have ht : 4 * (i 0).val + (i 1).val / 512 < cfg0.N := by omega
  refine ⟨⟨4 * (i 0).val + (i 1).val / 512, ht⟩, flush0_4 _, ?_⟩
  rw [mem_blk]
  obtain ⟨-, -, -, -, -, -, -, -, -, e0, e1, e2, -⟩ := idx_facts ⟨4 * (i 0).val + (i 1).val / 512, ht⟩
  intro a
  match a with
  | ⟨0, _⟩ =>
    show win0_4.index ⟨4 * (i 0).val + (i 1).val / 512, ht⟩ (0 : Fin 3) * 1 ≤ (i 0).val ∧ (i 0).val < win0_4.index ⟨4 * (i 0).val + (i 1).val / 512, ht⟩ (0 : Fin 3) * 1 + 1
    rw [e0]; show (4 * (i 0).val + (i 1).val / 512) / 4 * 1 ≤ (i 0).val ∧ (i 0).val < (4 * (i 0).val + (i 1).val / 512) / 4 * 1 + 1
    omega
  | ⟨1, _⟩ =>
    show win0_4.index ⟨4 * (i 0).val + (i 1).val / 512, ht⟩ (1 : Fin 3) * 512 ≤ (i 1).val ∧ (i 1).val < win0_4.index ⟨4 * (i 0).val + (i 1).val / 512, ht⟩ (1 : Fin 3) * 512 + 512
    rw [e1]; show (4 * (i 0).val + (i 1).val / 512) % 4 * 512 ≤ (i 1).val ∧ (i 1).val < (4 * (i 0).val + (i 1).val / 512) % 4 * 512 + 512
    omega
  | ⟨2, _⟩ =>
    show win0_4.index ⟨4 * (i 0).val + (i 1).val / 512, ht⟩ (2 : Fin 3) * 256 ≤ (i 2).val ∧ (i 2).val < win0_4.index ⟨4 * (i 0).val + (i 1).val / 512, ht⟩ (2 : Fin 3) * 256 + 256
    rw [e2]; omega

/-- The result array after the run is `G`: every index is covered by a block, and each block written back is `G`'s. -/
theorem final (c : Dev nD) : (dats m 0 c).arrAt 4 cfg0.N = G m c :=
  (dats m 0 c).arrAt_eq_of_cover 4 (G m c) (fun t _ => flushed_eq m c t) (cover)

/-- The kernel's run, read: the result array at the attention entries of the arguments, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.AttnValue

end
-- ==== Proof.RefEntry.lean ====
/-
  The reference's result at one entry, at the ideal values.

  jnp's attention — three projections, the scores `Q·Kᵀ` divided by `sqrt 256`, jax.nn.softmax over the keys, the
  weighted sum of the value rows — read at (b, q, d) one operation at a time is `Attn.outS` of the argument arrays:
  the extra `max` with the word of −∞ around the row maximum does nothing to a fold of `max` that starts from that
  word, and the row sum's zero word is the extended real 0.
-/
import proofs.«109641_j87574383165870_2_alg».proof.Proof.Gen.ReferenceIdeal.Read
import proofs.«109641_j87574383165870_2_alg».proof.Proof.AttnLaw
import Idealize.ShloMosaic.PureOps.Ideal.Laws
import Idealize.ShloMosaic.Lib.ValueIdx
import Idealize.ShloMosaic.Lib.Pipeline.Value

noncomputable section

namespace Cert.ReferenceIdeal.RefEntry

open Cert.ReferenceIdeal Cert.ReferenceIdeal.Gen Cert.ReferenceIdeal.Read Idealize.ShloMosaic Idealize.ShloMosaic.ValueIdx

/-- The activations as a function of their three coordinates. -/
abbrev xs (x0 : (⟨S8x2048x512, .f32⟩ : BufTy).Contents (Elt Ideal)) : Fin 8 → Fin 2048 → Fin 512 → EReal := fun b t f => x0 (ix3 b t f)
/-- A weight matrix as a function of its two coordinates. -/
abbrev ws (w : (⟨S512x256, .f32⟩ : BufTy).Contents (Elt Ideal)) : Fin 512 → Fin 256 → EReal := fun f d => w (ix2 f d)
/-- The score row of query row q of batch b: the scaled products against every key row. -/
abbrev srow (x0 : (⟨S8x2048x512, .f32⟩ : BufTy).Contents (Elt Ideal)) (x1 x2 : (⟨S512x256, .f32⟩ : BufTy).Contents (Elt Ideal)) (b : Fin 8) (q : Fin 2048) : Fin 2048 → EReal :=
  fun k => Attn.scoreS (Attn.proj (xs x0) (ws x1) b q) (Attn.proj (xs x0) (ws x2) b k)

/-- Projection 0 read at (b, t, d) is the sum over the 512 features. -/
theorem v0_entry (x0 : (⟨S8x2048x512, .f32⟩ : BufTy).Contents (Elt Ideal)) (w : (⟨S512x256, .f32⟩ : BufTy).Contents (Elt Ideal))
    (b : Fin 8) (t : Fin 2048) (d : Fin 256) :
    val_main_v0 (F := Ideal) x0 w (ix3 b t d) = Attn.proj (xs x0) (ws w) b t d := by
  rw [val_main_v0_apply]
  unfold Attn.proj
  refine Finset.sum_congr rfl fun f _ => ?_
  have el : lidx_main_v0 (ix3 b t d) f = ix3 b t f := funext fun a => Fin.ext (by match a with | ⟨0, _⟩ => rfl | ⟨1, _⟩ => rfl | ⟨2, _⟩ => rfl)
  have er : ridx_main_v0 (ix3 b t d) f = ix2 f d := funext fun a => Fin.ext (by match a with | ⟨0, _⟩ => rfl | ⟨1, _⟩ => rfl)
  rw [el, er]

/-- Projection 1 read at (b, t, d) is the sum over the 512 features. -/
theorem v1_entry (x0 : (⟨S8x2048x512, .f32⟩ : BufTy).Contents (Elt Ideal)) (w : (⟨S512x256, .f32⟩ : BufTy).Contents (Elt Ideal))
    (b : Fin 8) (t : Fin 2048) (d : Fin 256) :
    val_main_v1 (F := Ideal) x0 w (ix3 b t d) = Attn.proj (xs x0) (ws w) b t d := by
  rw [val_main_v1_apply]
  unfold Attn.proj
  refine Finset.sum_congr rfl fun f _ => ?_
  have el : lidx_main_v1 (ix3 b t d) f = ix3 b t f := funext fun a => Fin.ext (by match a with | ⟨0, _⟩ => rfl | ⟨1, _⟩ => rfl | ⟨2, _⟩ => rfl)
  have er : ridx_main_v1 (ix3 b t d) f = ix2 f d := funext fun a => Fin.ext (by match a with | ⟨0, _⟩ => rfl | ⟨1, _⟩ => rfl)
  rw [el, er]

/-- Projection 2 read at (b, t, d) is the sum over the 512 features. -/
theorem v2_entry (x0 : (⟨S8x2048x512, .f32⟩ : BufTy).Contents (Elt Ideal)) (w : (⟨S512x256, .f32⟩ : BufTy).Contents (Elt Ideal))
    (b : Fin 8) (t : Fin 2048) (d : Fin 256) :
    val_main_v2 (F := Ideal) x0 w (ix3 b t d) = Attn.proj (xs x0) (ws w) b t d := by
  rw [val_main_v2_apply]
  unfold Attn.proj
  refine Finset.sum_congr rfl fun f _ => ?_
  have el : lidx_main_v2 (ix3 b t d) f = ix3 b t f := funext fun a => Fin.ext (by match a with | ⟨0, _⟩ => rfl | ⟨1, _⟩ => rfl | ⟨2, _⟩ => rfl)
  have er : ridx_main_v2 (ix3 b t d) f = ix2 f d := funext fun a => Fin.ext (by match a with | ⟨0, _⟩ => rfl | ⟨1, _⟩ => rfl)
  rw [el, er]

/-- The unscaled score at (b, q, k): the sum over the 256 channels of query entry times key entry. -/
theorem v3_entry (x0 : (⟨S8x2048x512, .f32⟩ : BufTy).Contents (Elt Ideal)) (x1 x2 : (⟨S512x256, .f32⟩ : BufTy).Contents (Elt Ideal)) (b : Fin 8) (q k : Fin 2048) :
    val_main_v3 (F := Ideal) x0 x1 x2 (ix3 b q k)
      = ∑ d : Fin 256, Attn.proj (xs x0) (ws x1) b q d * Attn.proj (xs x0) (ws x2) b k d := by
  rw [val_main_v3_apply]
  refine Finset.sum_congr rfl fun d _ => ?_
  have el : lidx_main_v3 (ix3 b q k) d = ix3 b q d := funext fun a => Fin.ext (by match a with | ⟨0, _⟩ => rfl | ⟨1, _⟩ => rfl | ⟨2, _⟩ => rfl)
  have er : ridx_main_v3 (ix3 b q k) d = ix3 b k d := funext fun a => Fin.ext (by match a with | ⟨0, _⟩ => rfl | ⟨1, _⟩ => rfl | ⟨2, _⟩ => rfl)
  rw [el, er, v0_entry, v1_entry]

/-- The score at (b, q, k): that sum divided by the square root of the word of 256. -/
theorem v6_entry (x0 : (⟨S8x2048x512, .f32⟩ : BufTy).Contents (Elt Ideal)) (x1 x2 : (⟨S512x256, .f32⟩ : BufTy).Contents (Elt Ideal)) (b : Fin 8) (q k : Fin 2048) :
    val_main_v6 (F := Ideal) x0 x1 x2 (ix3 b q k) = srow x0 x1 x2 b q k := by
  rw [val_main_v6_apply, v3_entry, val_main_v5_apply, val_main_v4_apply, val_main_cst_apply]
  rfl

/-- The reduce with maximum over axis 2, read by hand: the fold of max over the keys from the word of −∞. -/
theorem v7_entry (x0 : (⟨S8x2048x512, .f32⟩ : BufTy).Contents (Elt Ideal)) (x1 x2 : (⟨S512x256, .f32⟩ : BufTy).Contents (Elt Ideal)) (b : Fin 8) (q : Fin 2048) :
    val_main_v7 (F := Ideal) x0 x1 x2 (ix2 b q)
      = (Finset.univ : Finset (Fin 2048)).fold max (Ideal.ofBits .f32 0xFF800000#32 : EReal) (srow x0 x1 x2 b q) := by
  unfold val_main_v7
  have h : S8x2048x2048.Reduces [2] S8x2048 := by decide
  refine (Host.reduce_eq_fold_single _ _ _ _ h _ _).trans ?_
  have e : ∀ k : Fin 2048, h.lift (ix2 b q) k = ix3 b q k := fun k =>
    funext fun a => Fin.ext (by match a with | ⟨0, _⟩ => rfl | ⟨1, _⟩ => rfl | ⟨2, _⟩ => rfl)
  have hf : (val_main_v6 (F := Ideal) x0 x1 x2 ∘ h.lift (ix2 b q)) = srow x0 x1 x2 b q :=
    funext fun (k : Fin 2048) => by
      show val_main_v6 (F := Ideal) x0 x1 x2 (h.lift (ix2 b q) k) = _
      rw [e k, v6_entry]
  exact congrArg (fun g => (Finset.univ : Finset (Fin 2048)).fold max (Ideal.ofBits .f32 0xFF800000#32 : EReal) g) hf

/-- The row maximum at (b, q): the extra max with the word of −∞ leaves the fold as it is. -/
theorem v9_entry (x0 : (⟨S8x2048x512, .f32⟩ : BufTy).Contents (Elt Ideal)) (x1 x2 : (⟨S512x256, .f32⟩ : BufTy).Contents (Elt Ideal)) (b : Fin 8) (q : Fin 2048) :
    val_main_v9 (F := Ideal) x0 x1 x2 (ix2 b q) = Attn.rowMax (srow x0 x1 x2 b q) := by
  rw [val_main_v9_apply, val_main_v8_apply, val_main_cst_1_apply, v7_entry]
  unfold Attn.rowMax
  exact Attn.max_init_fold _ _ _

/-- The row maximum broadcast back over the keys. -/
theorem v11_entry (x0 : (⟨S8x2048x512, .f32⟩ : BufTy).Contents (Elt Ideal)) (x1 x2 : (⟨S512x256, .f32⟩ : BufTy).Contents (Elt Ideal)) (b : Fin 8) (q k : Fin 2048) :
    val_main_v11 (F := Ideal) x0 x1 x2 (ix3 b q k) = Attn.rowMax (srow x0 x1 x2 b q) := by
  rw [val_main_v11_apply, val_main_v10_apply]
  have e : idx_main_v10 (idx_main_v11 (ix3 b q k)) = ix2 b q := funext fun a => Fin.ext (by match a with | ⟨0, _⟩ => rfl | ⟨1, _⟩ => rfl)
  rw [e, v9_entry]

/-- The exponential of the shifted score. -/
theorem v13_entry (x0 : (⟨S8x2048x512, .f32⟩ : BufTy).Contents (Elt Ideal)) (x1 x2 : (⟨S512x256, .f32⟩ : BufTy).Contents (Elt Ideal)) (b : Fin 8) (q k : Fin 2048) :
    val_main_v13 (F := Ideal) x0 x1 x2 (ix3 b q k)
      = Ideal.exp (srow x0 x1 x2 b q k - Attn.rowMax (srow x0 x1 x2 b q)) := by
  rw [val_main_v13_apply, val_main_v12_apply, v6_entry, v11_entry]
  rfl

/-- The row sum of the exponentials: its zero word is the extended real 0. -/
theorem v14_entry (x0 : (⟨S8x2048x512, .f32⟩ : BufTy).Contents (Elt Ideal)) (x1 x2 : (⟨S512x256, .f32⟩ : BufTy).Contents (Elt Ideal)) (b : Fin 8) (q : Fin 2048) :
    val_main_v14 (F := Ideal) x0 x1 x2 (ix2 b q)
      = ∑ k : Fin 2048, Ideal.exp (srow x0 x1 x2 b q k - Attn.rowMax (srow x0 x1 x2 b q)) := by
  rw [val_main_v14_apply, val_main_cst_2_apply, Ideal.ofBits_def, Ideal.ofBits_zero_f32, zero_add]
  refine Finset.sum_congr rfl fun k _ => ?_
  have e : idx_main_v14 (ix2 b q) k = ix3 b q k := funext fun a => Fin.ext (by match a with | ⟨0, _⟩ => rfl | ⟨1, _⟩ => rfl | ⟨2, _⟩ => rfl)
  rw [e, v13_entry]

/-- The row sum broadcast back over the keys. -/
theorem v16_entry (x0 : (⟨S8x2048x512, .f32⟩ : BufTy).Contents (Elt Ideal)) (x1 x2 : (⟨S512x256, .f32⟩ : BufTy).Contents (Elt Ideal)) (b : Fin 8) (q k : Fin 2048) :
    val_main_v16 (F := Ideal) x0 x1 x2 (ix3 b q k)
      = ∑ k' : Fin 2048, Ideal.exp (srow x0 x1 x2 b q k' - Attn.rowMax (srow x0 x1 x2 b q)) := by
  rw [val_main_v16_apply, val_main_v15_apply]
  have e : idx_main_v15 (idx_main_v16 (ix3 b q k)) = ix2 b q := funext fun a => Fin.ext (by match a with | ⟨0, _⟩ => rfl | ⟨1, _⟩ => rfl)
  rw [e, v14_entry]

/-- The softmax weight at (b, q, k). -/
theorem v17_entry (x0 : (⟨S8x2048x512, .f32⟩ : BufTy).Contents (Elt Ideal)) (x1 x2 : (⟨S512x256, .f32⟩ : BufTy).Contents (Elt Ideal)) (b : Fin 8) (q k : Fin 2048) :
    val_main_v17 (F := Ideal) x0 x1 x2 (ix3 b q k)
      = Ideal.div (Ideal.exp (srow x0 x1 x2 b q k - Attn.rowMax (srow x0 x1 x2 b q)))
          (∑ k' : Fin 2048, Ideal.exp (srow x0 x1 x2 b q k' - Attn.rowMax (srow x0 x1 x2 b q))) := by
  rw [val_main_v17_apply, v13_entry, v16_entry]
  rfl

/-- The reference's last stage at (b, q, d) is the attention entry with the scores divided by `sqrt 256`. -/
theorem ref_entry (x0 : (⟨S8x2048x512, .f32⟩ : BufTy).Contents (Elt Ideal)) (x1 x2 x3 : (⟨S512x256, .f32⟩ : BufTy).Contents (Elt Ideal))
    (b : Fin 8) (q : Fin 2048) (d : Fin 256) :
    val_main_v18 (F := Ideal) x0 x1 x2 x3 (ix3 b q d)
      = Attn.outS (fun b t f => x0 (ix3 b t f)) (fun f d => x1 (ix2 f d)) (fun f d => x2 (ix2 f d)) (fun f d => x3 (ix2 f d)) b q d := by
  rw [val_main_v18_apply]
  unfold Attn.outS Attn.soft
  refine Finset.sum_congr rfl fun k _ => ?_
  have el : lidx_main_v18 (ix3 b q d) k = ix3 b q k := funext fun a => Fin.ext (by match a with | ⟨0, _⟩ => rfl | ⟨1, _⟩ => rfl | ⟨2, _⟩ => rfl)
  have er : ridx_main_v18 (ix3 b q d) k = ix3 b k d := funext fun a => Fin.ext (by match a with | ⟨0, _⟩ => rfl | ⟨1, _⟩ => rfl | ⟨2, _⟩ => rfl)
  rw [el, er, v17_entry, v2_entry]

end Cert.ReferenceIdeal.RefEntry

end
-- ==== Proof.lean ====
/-
  The certificate of the fused self-attention kernel against jnp's attention: `Cert.Claim`.

  Both programs compute, for batch item `b`, query row `q` and channel `d`, the softmax-weighted sum over the 2048 keys of
  the projected value rows, with scores `Q·Kᵀ` scaled by `1 / sqrt 256`. They differ in where the scale is applied: the
  kernel multiplies the projected query by the f32 word of 1/16 before the score's sum over the 256 channels, the
  reference divides the score by `sqrt` of the word of 256. On the extended reals these are one number for every input
  (`Attn.scoreQ_eq_scoreS`: dividing by the real 16 is multiplying by the real 1/16, and a non-negative real factor
  distributes over a finite sum), so the precondition is never opened. Everything else is the same function of the
  scores on both sides: the row maximum as a fold of `max` from the word of −∞, the exponentials, their row sum, the
  quotient, the weighted sum; a change of float format is the identity, a matrix product into a zero accumulator and
  the host's dot_general are the same sum, and the kernel's tiling (a query tile of 512 rows per grid point, keys and
  values projected once per batch item and carried across its four tiles) re-assembles to the whole array.

  The three frames are the generated ones (the reference's frame is its generated run with the result dropped); the
  idealization rewrote nothing, so `preserves` is `True`; `algebraic` sets the kernel's run (`AttnValue.run`: the result
  array is `G`, entry by entry `Attn.outQ` of the arguments) beside the reference's run read one operation at a time
  (`RefEntry.ref_entry`: entry by entry `Attn.outS` of the same arguments) and joins them by `Attn.outQ_eq_outS`.
-/
import proofs.«109641_j87574383165870_2_alg».proof.Defs
import proofs.«109641_j87574383165870_2_alg».proof.Proof.Gen.Kernel
import proofs.«109641_j87574383165870_2_alg».proof.Proof.Gen.Kernel.Frame
import proofs.«109641_j87574383165870_2_alg».proof.Proof.Gen.KernelIdeal
import proofs.«109641_j87574383165870_2_alg».proof.Proof.Gen.KernelIdeal.Frame
import proofs.«109641_j87574383165870_2_alg».proof.Proof.Gen.KernelIdeal.Value
import proofs.«109641_j87574383165870_2_alg».proof.Proof.Gen.ReferenceIdeal
import proofs.«109641_j87574383165870_2_alg».proof.Proof.Gen.ReferenceIdeal.Run
import proofs.«109641_j87574383165870_2_alg».proof.Proof.Gen.ReferenceIdeal.Read
import proofs.«109641_j87574383165870_2_alg».proof.Proof.Gen.Pre_finite_inputs
import proofs.«109641_j87574383165870_2_alg».proof.Proof.AttnLaw
import proofs.«109641_j87574383165870_2_alg».proof.Proof.KernelValue
import proofs.«109641_j87574383165870_2_alg».proof.Proof.RefEntry
import Idealize.ShloMosaic.Adequacy
import Idealize.ShloMosaic.Init

noncomputable section

namespace Cert.Proof

open Idealize.ShloMosaic Idealize.SL.Sem

/-- The kernel as printed runs, and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization is the kernel's own text read at the ideal values: nothing to preserve. -/
theorem preserves : Cert.preserves_Kernel_KernelIdeal := trivial

/-- At the ideal values, from memories that agree on the arguments, the kernel's result array and the reference's are
    equal entry by entry: the attention entry with the scale folded into the query, and the one with the scores
    divided by `sqrt 256`. -/
theorem algebraic : Cert.algebraic_KernelIdeal_ReferenceIdeal := by
  intro m ρ m' ρ' _ hagree
  refine ⟨fun c => Cert.KernelIdeal.AttnValue.G m c, Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2.1, (hagree c).2.2.1, (hagree c).2.2.2]
  funext i
  obtain ⟨b, q, d, rfl⟩ : ∃ (b : Fin 8) (q : Fin 2048) (d : Fin 256), i = ValueIdx.ix3 b q d :=
    ⟨i 0, i 1, i 2, ValueIdx.eq_ix3 i⟩
  rw [Cert.ReferenceIdeal.RefEntry.ref_entry]
  exact (Attn.outQ_eq_outS _ _ _ _ b q d).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
